-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel

variable [Facts]

def fn {F : FTy → Type} [FloatOps F] (main_arg0 : FVec F S8x32x512x512 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  main_v3
-- ==== Kernel.lean ====
abbrev S8x32x512x512 : Shape := ⟨4, ![8, 32, 512, 512]⟩
abbrev S8x32x256x2x256x2 : Shape := ⟨6, ![8, 32, 256, 2, 256, 2]⟩
abbrev S8x32x256x1x256x1 : Shape := ⟨6, ![8, 32, 256, 1, 256, 1]⟩
abbrev S8x32x256x256 : Shape := ⟨4, ![8, 32, 256, 256]⟩
abbrev S8x128x256x256 : Shape := ⟨4, ![8, 128, 256, 256]⟩
abbrev S1x4x256x256 : Shape := ⟨4, ![1, 4, 256, 256]⟩
abbrev S1x16x256x256 : Shape := ⟨4, ![1, 16, 256, 256]⟩
abbrev S4x256x256 : Shape := ⟨3, ![4, 256, 256]⟩
abbrev S4x1x256x256 : Shape := ⟨4, ![4, 1, 256, 256]⟩
abbrev S4x4x256x256 : Shape := ⟨4, ![4, 4, 256, 256]⟩
abbrev S16x256x256 : Shape := ⟨3, ![16, 256, 256]⟩

abbrev nBuf : Space → Nat
  | .hbm => 11
  | .vmem => 10
  | .smem => 0
  | _ => 0

abbrev bufTy : (tb : Table) → Fin (tcTables nBuf tb) → BufTy
  | .hbm, ⟨0, _⟩ => ⟨S8x32x512x512, .f32⟩
  | .hbm, ⟨1, _⟩ => ⟨S8x32x256x2x256x2, .f32⟩
  | .hbm, ⟨2, _⟩ => ⟨S8x32x256x1x256x1, .f32⟩
  | .hbm, ⟨3, _⟩ => ⟨S8x32x256x256, .f32⟩
  | .hbm, ⟨4, _⟩ => ⟨S8x32x256x1x256x1, .f32⟩
  | .hbm, ⟨5, _⟩ => ⟨S8x32x256x256, .f32⟩
  | .hbm, ⟨6, _⟩ => ⟨S8x32x256x1x256x1, .f32⟩
  | .hbm, ⟨7, _⟩ => ⟨S8x32x256x256, .f32⟩
  | .hbm, ⟨8, _⟩ => ⟨S8x32x256x1x256x1, .f32⟩
  | .hbm, ⟨9, _⟩ => ⟨S8x32x256x256, .f32⟩
  | .hbm, ⟨10, _⟩ => ⟨S8x128x256x256, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x256x256, .f32⟩
  | .local _ .vmem, ⟨3, _⟩ => ⟨S1x4x256x256, .f32⟩
  | .local _ .vmem, ⟨4, _⟩ => ⟨S1x4x256x256, .f32⟩
  | .local _ .vmem, ⟨5, _⟩ => ⟨S1x4x256x256, .f32⟩
  | .local _ .vmem, ⟨6, _⟩ => ⟨S1x4x256x256, .f32⟩
  | .local _ .vmem, ⟨7, _⟩ => ⟨S1x4x256x256, .f32⟩
  | .local _ .vmem, ⟨8, _⟩ => ⟨S1x16x256x256, .f32⟩
  | .local _ .vmem, ⟨9, _⟩ => ⟨S1x16x256x256, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x32x512x512_S8x32x256x2x256x2 : S8x32x512x512.ShapeCasts S8x32x256x2x256x2
  slices_S8x32x256x2x256x2_S8x32x256x1x256x1_0_0_0_0_0_0 : S8x32x256x2x256x2.Slices ![0, 0, 0, 0, 0, 0] S8x32x256x1x256x1
  shapeCasts_S8x32x256x1x256x1_S8x32x256x256 : S8x32x256x1x256x1.ShapeCasts S8x32x256x256
  slices_S8x32x256x2x256x2_S8x32x256x1x256x1_0_0_0_0_0_1 : S8x32x256x2x256x2.Slices ![0, 0, 0, 0, 0, 1] S8x32x256x1x256x1
  slices_S8x32x256x2x256x2_S8x32x256x1x256x1_0_0_0_1_0_0 : S8x32x256x2x256x2.Slices ![0, 0, 0, 1, 0, 0] S8x32x256x1x256x1
  slices_S8x32x256x2x256x2_S8x32x256x1x256x1_0_0_0_1_0_1 : S8x32x256x2x256x2.Slices ![0, 0, 0, 1, 0, 1] S8x32x256x1x256x1
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S4x1x256x256 : S4x256x256.ShapeCasts S4x1x256x256
  concatenates_S4x1x256x256_S4x1x256x256_S4x1x256x256_S4x1x256x256_S4x4x256x256_d1 : Shape.Concatenates [S4x1x256x256, S4x1x256x256, S4x1x256x256, S4x1x256x256] S4x4x256x256 1
  shapeCasts_S4x4x256x256_S16x256x256 : S4x4x256x256.ShapeCasts S16x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S8x32x256x256.size a
  hwx0_0 : ∀ i : grid0.Coords, EltTy.bits .f32 = 32 ∨ (Rect.block (s := S8x32x256x256) S1x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x32x256x256.size a
  hwx0_1 : ∀ i : grid0.Coords, EltTy.bits .f32 = 32 ∨ (Rect.block (s := S8x32x256x256) S1x4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x256.size a ≤ S8x32x256x256.size a
  hwx0_2 : ∀ i : grid0.Coords, EltTy.bits .f32 = 32 ∨ (Rect.block (s := S8x32x256x256) S1x4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x256x256.size a ≤ S8x32x256x256.size a
  hwx0_3 : ∀ i : grid0.Coords, EltTy.bits .f32 = 32 ∨ (Rect.block (s := S8x32x256x256) S1x4x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x256.size a ≤ S8x128x256x256.size a
  hwx0_4 : ∀ i : grid0.Coords, EltTy.bits .f32 = 32 ∨ (Rect.block (s := S8x128x256x256) S1x16x256x256.size (cc0_transform_4 i) (hinb0_4 i)).WholeWords (EltTy.packing .f32)

variable [Facts₀]

abbrev win0_0 : Pipeline.Window sig grid0 :=
  Pipeline.Window.ofSpec (Memref.whole main_v2) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x4x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S8x32x256x2x256x2 : Shape := ⟨6, ![8, 32, 256, 2, 256, 2]⟩
abbrev S8x32x256x1x256x1 : Shape := ⟨6, ![8, 32, 256, 1, 256, 1]⟩
abbrev S8x32x256x256 : Shape := ⟨4, ![8, 32, 256, 256]⟩
abbrev S_ : Shape := ⟨0, ![]⟩
abbrev S8x32x1x256x256 : Shape := ⟨5, ![8, 32, 1, 256, 256]⟩
abbrev S8x32x4x256x256 : Shape := ⟨5, ![8, 32, 4, 256, 256]⟩
abbrev S8x128x256x256 : Shape := ⟨4, ![8, 128, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S8x32x256x2x256x2, .f32⟩
  | .hbm, ⟨2, _⟩ => ⟨S8x32x256x1x256x1, .f32⟩
  | .hbm, ⟨3, _⟩ => ⟨S8x32x256x256, .f32⟩
  | .hbm, ⟨4, _⟩ => ⟨S8x32x256x1x256x1, .f32⟩
  | .hbm, ⟨5, _⟩ => ⟨S8x32x256x256, .f32⟩
  | .hbm, ⟨6, _⟩ => ⟨S8x32x256x1x256x1, .f32⟩
  | .hbm, ⟨7, _⟩ => ⟨S8x32x256x256, .f32⟩
  | .hbm, ⟨8, _⟩ => ⟨S8x32x256x1x256x1, .f32⟩
  | .hbm, ⟨9, _⟩ => ⟨S8x32x256x256, .f32⟩
  | .hbm, ⟨10, _⟩ => ⟨S8x32x256x256, .f32⟩
  | .hbm, ⟨11, _⟩ => ⟨S8x32x256x256, .f32⟩
  | .hbm, ⟨12, _⟩ => ⟨S8x32x256x256, .f32⟩
  | .hbm, ⟨13, _⟩ => ⟨S_, .f32⟩
  | .hbm, ⟨14, _⟩ => ⟨S8x32x256x256, .f32⟩
  | .hbm, ⟨15, _⟩ => ⟨S8x32x256x256, .f32⟩
  | .hbm, ⟨16, _⟩ => ⟨S8x32x256x256, .f32⟩
  | .hbm, ⟨17, _⟩ => ⟨S8x32x256x256, .f32⟩
  | .hbm, ⟨18, _⟩ => ⟨S8x32x256x256, .f32⟩
  | .hbm, ⟨19, _⟩ => ⟨S_, .f32⟩
  | .hbm, ⟨20, _⟩ => ⟨S8x32x256x256, .f32⟩
  | .hbm, ⟨21, _⟩ => ⟨S8x32x256x256, .f32⟩
  | .hbm, ⟨22, _⟩ => ⟨S8x32x256x256, .f32⟩
  | .hbm, ⟨23, _⟩ => ⟨S8x32x256x256, .f32⟩
  | .hbm, ⟨24, _⟩ => ⟨S8x32x256x256, .f32⟩
  | .hbm, ⟨25, _⟩ => ⟨S_, .f32⟩
  | .hbm, ⟨26, _⟩ => ⟨S8x32x256x256, .f32⟩
  | .hbm, ⟨27, _⟩ => ⟨S8x32x256x256, .f32⟩
  | .hbm, ⟨28, _⟩ => ⟨S8x32x256x256, .f32⟩
  | .hbm, ⟨29, _⟩ => ⟨S8x32x256x256, .f32⟩
  | .hbm, ⟨30, _⟩ => ⟨S8x32x256x256, .f32⟩
  | .hbm, ⟨31, _⟩ => ⟨S_, .f32⟩
  | .hbm, ⟨32, _⟩ => ⟨S8x32x256x256, .f32⟩
  | .hbm, ⟨33, _⟩ => ⟨S8x32x256x256, .f32⟩
  | .hbm, ⟨34, _⟩ => ⟨S8x32x1x256x256, .f32⟩
  | .hbm, ⟨35, _⟩ => ⟨S8x32x1x256x256, .f32⟩
  | .hbm, ⟨36, _⟩ => ⟨S8x32x1x256x256, .f32⟩
  | .hbm, ⟨37, _⟩ => ⟨S8x32x1x256x256, .f32⟩
  | .hbm, ⟨38, _⟩ => ⟨S8x32x4x256x256, .f32⟩
  | .hbm, ⟨39, _⟩ => ⟨S8x128x256x256, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  shapeCasts_S8x32x512x512_S8x32x256x2x256x2 : S8x32x512x512.ShapeCasts S8x32x256x2x256x2
  slices_S8x32x256x2x256x2_S8x32x256x1x256x1_0_0_0_0_0_0 : S8x32x256x2x256x2.Slices ![0, 0, 0, 0, 0, 0] S8x32x256x1x256x1
  shapeCasts_S8x32x256x1x256x1_S8x32x256x256 : S8x32x256x1x256x1.ShapeCasts S8x32x256x256
  slices_S8x32x256x2x256x2_S8x32x256x1x256x1_0_0_0_0_0_1 : S8x32x256x2x256x2.Slices ![0, 0, 0, 0, 0, 1] S8x32x256x1x256x1
  slices_S8x32x256x2x256x2_S8x32x256x1x256x1_0_0_0_1_0_0 : S8x32x256x2x256x2.Slices ![0, 0, 0, 1, 0, 0] S8x32x256x1x256x1
  slices_S8x32x256x2x256x2_S8x32x256x1x256x1_0_0_0_1_0_1 : S8x32x256x2x256x2.Slices ![0, 0, 0, 1, 0, 1] S8x32x256x1x256x1
  bcast_S_S8x32x256x256 : S_.BroadcastsInDim S8x32x256x256 (![] : Fin 0 → Fin S8x32x256x256.rank)
  bcast_S8x32x256x256_S8x32x1x256x256_0_1_3_4 : S8x32x256x256.BroadcastsInDim S8x32x1x256x256 (![0, 1, 3, 4] : Fin 4 → Fin S8x32x1x256x256.rank)
  concatenates_S8x32x1x256x256_S8x32x1x256x256_S8x32x1x256x256_S8x32x1x256x256_S8x32x4x256x256_d2 : Shape.Concatenates [S8x32x1x256x256, S8x32x1x256x256, S8x32x1x256x256, S8x32x1x256x256] S8x32x4x256x256 2
  shapeCasts_S8x32x4x256x256_S8x128x256x256 : S8x32x4x256x256.ShapeCasts S8x128x256x256

variable [Facts₀]

class Facts : Prop extends Facts₀ where

variable [Facts]
-- ==== Proof.HaarSpec.lean ====
/-
  One level of the two-dimensional Haar wavelet transform, written as a function of the four polyphase
  parts of the image.

  An image x[b, c, 2i + r, 2j + s] has four polyphase parts p_rs[b, c, i, j], r, s ∈ {0, 1}, each a
  quarter-size image. At every position (b, c, i, j) the transform combines the four samples
  a = p00, b = p01, c = p10, d = p11 into four bands,
      band 0 (approximation)        ((a + b) + c) + d) · ½
      band 1 (horizontal detail)    ((a + b) − c) − d) · ½
      band 2 (vertical detail)      ((a − b) + c) − d) · ½
      band 3 (diagonal detail)      ((a − b) − c) + d) · ½
  and lays the bands of channel c out as the four consecutive channels 4c, 4c + 1, 4c + 2, 4c + 3 of the
  result. So the result at (b, ch, i, j) is band (ch mod 4) of the four samples at (b, ch div 4, i, j).
  The operations are taken in exactly this order, so nothing about the arithmetic of the extended reals
  (no regrouping, no cancellation) is ever used.
-/
import Idealize.ShloMosaic.PureOps.Vector
import Idealize.ShloMosaic.Lib.ValueIdx

noncomputable section

namespace Cert.Haar

open Idealize.ShloMosaic

variable {F : FTy → Type} [FloatOps F]

/-- A polyphase part of the image: [8, 32, 256, 256]. -/
abbrev SPart : Shape := ⟨4, ![8, 32, 256, 256]⟩
/-- The transform's result, four bands per channel: [8, 128, 256, 256]. -/
abbrev SBands : Shape := ⟨4, ![8, 128, 256, 256]⟩

/-- The scale one half (the binary32 word 0x3F000000). -/
abbrev half : F .f32 := FloatOps.ofBits .f32 0x3F000000#32

/-- Band `k` of four samples: the signed sum taken left to right, then halved. The signs of the second,
    third and fourth sample are (+, +, +), (+, −, −), (−, +, −), (−, −, +) for k = 0, 1, 2, 3. -/
def band (k : Fin 4) (a b c d : F .f32) : F .f32 :=
  match k with
  | ⟨0, _⟩ => FloatOps.mulf (FloatOps.addf (FloatOps.addf (FloatOps.addf a b) c) d) half
  | ⟨1, _⟩ => FloatOps.mulf (FloatOps.subf (FloatOps.subf (FloatOps.addf a b) c) d) half
  | ⟨2, _⟩ => FloatOps.mulf (FloatOps.subf (FloatOps.addf (FloatOps.subf a b) c) d) half
  | ⟨3, _⟩ => FloatOps.mulf (FloatOps.addf (FloatOps.subf (FloatOps.subf a b) c) d) half

/-- The position in a polyphase part that result index (b, ch, i, j) reads: (b, ch div 4, i, j). -/
abbrev partIdx (i : SBands.Idx) : SPart.Idx := fun a => match a with
  | ⟨0, _⟩ => ⟨(i 0).val, (i 0).isLt⟩
  | ⟨1, _⟩ => ⟨(i 1).val / 4, by have h1 : (i 1).val < 128 := (i 1).isLt; show (i 1).val / 4 < 32; omega⟩
  | ⟨2, _⟩ => ⟨(i 2).val, (i 2).isLt⟩
  | ⟨3, _⟩ => ⟨(i 3).val, (i 3).isLt⟩

/-- The band that result index (b, ch, i, j) holds: ch mod 4. -/
abbrev bandIdx (i : SBands.Idx) : Fin 4 := ⟨(i 1).val % 4, Nat.mod_lt _ (by decide)⟩

/-- THE TRANSFORM: the result as one function of the four polyphase parts, index by index. -/
def bands (p00 p01 p10 p11 : SPart.Idx → F .f32) : SBands.Idx → F .f32 := fun i =>
  band (bandIdx i) (p00 (partIdx i)) (p01 (partIdx i)) (p10 (partIdx i)) (p11 (partIdx i))

theorem bands_apply (p00 p01 p10 p11 : SPart.Idx → F .f32) (i : SBands.Idx) :
    bands p00 p01 p10 p11 i = band (bandIdx i) (p00 (partIdx i)) (p01 (partIdx i)) (p10 (partIdx i)) (p11 (partIdx i)) := rfl

/-- Two readings of one band of the same four samples agree. -/
theorem band_congr {k k' : Fin 4} {a a' b b' c c' d d' : F .f32} (hk : k = k') (ha : a = a') (hb : b = b')
    (hc : c = c') (hd : d = d') : band k a b c d = band k' a' b' c' d' := by
  subst hk ha hb hc hd; rfl

end Cert.Haar

end
-- ==== Proof.KernelBlock.lean ====
/-
  What one grid point of the kernel leaves in its output block.

  At a grid point the body holds four input blocks P0, P1, P2, P3 of shape [1, 4, 256, 256] — four consecutive
  channels of the four polyphase parts — and stores one block of shape [1, 16, 256, 256]. It forms the four bands of
  the four channels, [4, 256, 256] each, stacks them along a new second axis into [4, 4, 256, 256] and flattens the
  two leading axes. Row r of the stored block is therefore band (r mod 4) of channel (r div 4):
      block[0, r, i, j] = band (r mod 4) of P0, P1, P2, P3 at [0, r div 4, i, j].
  The generated value leg already reads the stored block as `E4`: operand (r mod 4) of the concatenation at
  (r div 4, 0, i, j). What is proved here is that operand n at (q, 0, i, j) is band n of the four loads at (0, q, i, j):
  two reshapes that only add or drop a unit axis, around pointwise arithmetic.
-/
import proofs.«119243_j36739150250538_2_alg».proof.Proof.Gen.KernelIdeal.Value
import proofs.«119243_j36739150250538_2_alg».proof.Proof.HaarSpec

noncomputable section

namespace Cert.KernelIdeal.Block

open Cert.KernelIdeal Cert.KernelIdeal.Gen Cert.KernelIdeal.Value Idealize.ShloMosaic Cert.Haar

variable {F : FTy → Type} [FloatOps F]

/-- Dropping the leading unit axis of a loaded block: the [4, 256, 256] view at (q, i, j) is the block at (0, q, i, j). -/
theorem dropUnit_apply (P : Vec F S1x4x256x256 .f32) (w : S4x256x256.Idx) (u : S1x4x256x256.Idx)
    (h1 : (u 1).val = (w 0).val) (h2 : (u 2).val = (w 1).val) (h3 : (u 3).val = (w 2).val) :
    shapeCast S4x256x256 P shapeCasts_S1x4x256x256_S4x256x256 w = P u := by
  have hu0 : (u 0).val < 1 := (u 0).isLt
  refine shapeCast_apply P _ w u ?_
  rw [Shape.rowMajor_val_four, Shape.rowMajor_val_three]
  show (((u 0).val * 4 + (u 1).val) * 256 + (u 2).val) * 256 + (u 3).val = ((w 0).val * 256 + (w 1).val) * 256 + (w 2).val
  omega

/-- Inserting a unit second axis into a band: the [4, 1, 256, 256] view at (q, 0, i, j) is the band at (q, i, j). -/
theorem addUnit_apply (Q : FVec F S4x256x256 .f32) (z : S4x1x256x256.Idx) (w : S4x256x256.Idx)
    (h0 : (w 0).val = (z 0).val) (h1 : (w 1).val = (z 2).val) (h2 : (w 2).val = (z 3).val) :
    shapeCast S4x1x256x256 Q shapeCasts_S4x256x256_S4x1x256x256 z = Q w := by
  have hz1 : (z 1).val < 1 := (z 1).isLt
  refine shapeCast_apply Q _ z w ?_
  rw [Shape.rowMajor_val_three, Shape.rowMajor_val_four]
  show ((w 0).val * 256 + (w 1).val) * 256 + (w 2).val = (((z 0).val * 1 + (z 1).val) * 256 + (z 2).val) * 256 + (z 3).val
  omega

/-- The [4, 256, 256] position between the two reshapes: (q, i, j) under (q, 0, i, j). -/
abbrev midIdx (z : S4x1x256x256.Idx) : S4x256x256.Idx := fun a => match a with
  | ⟨0, _⟩ => ⟨(z 0).val, (z 0).isLt⟩
  | ⟨1, _⟩ => ⟨(z 2).val, (z 2).isLt⟩
  | ⟨2, _⟩ => ⟨(z 3).val, (z 3).isLt⟩

/-- OPERAND `n` OF THE BODY'S CONCATENATION at (q, 0, i, j) is band `n` of the four loaded blocks at (0, q, i, j). -/
theorem operand_apply (P0 P1 P2 P3 : Vec F S1x4x256x256 .f32) (n : Fin 4) (z : S4x1x256x256.Idx) (u : S1x4x256x256.Idx)
    (h1 : (u 1).val = (z 0).val) (h2 : (u 2).val = (z 2).val) (h3 : (u 3).val = (z 3).val) :
    Cat4_0 P0 P1 P2 P3 n z = band n (P0 u) (P1 u) (P2 u) (P3 u) := by
  have e0 := dropUnit_apply P0 (midIdx z) u h1 h2 h3
  have e1 := dropUnit_apply P1 (midIdx z) u h1 h2 h3
  have e2 := dropUnit_apply P2 (midIdx z) u h1 h2 h3
  have e3 := dropUnit_apply P3 (midIdx z) u h1 h2 h3
  match n with
  | ⟨0, _⟩ =>
    refine (addUnit_apply _ z (midIdx z) rfl rfl rfl).trans ?_
    show FloatOps.mulf (FloatOps.addf (FloatOps.addf (FloatOps.addf
        (shapeCast S4x256x256 P0 shapeCasts_S1x4x256x256_S4x256x256 (midIdx z))
        (shapeCast S4x256x256 P1 shapeCasts_S1x4x256x256_S4x256x256 (midIdx z)))
        (shapeCast S4x256x256 P2 shapeCasts_S1x4x256x256_S4x256x256 (midIdx z)))
        (shapeCast S4x256x256 P3 shapeCasts_S1x4x256x256_S4x256x256 (midIdx z))) half = _
    rw [e0, e1, e2, e3]; rfl
  | ⟨1, _⟩ =>
    refine (addUnit_apply _ z (midIdx z) rfl rfl rfl).trans ?_
    show FloatOps.mulf (FloatOps.subf (FloatOps.subf (FloatOps.addf
        (shapeCast S4x256x256 P0 shapeCasts_S1x4x256x256_S4x256x256 (midIdx z))
        (shapeCast S4x256x256 P1 shapeCasts_S1x4x256x256_S4x256x256 (midIdx z)))
        (shapeCast S4x256x256 P2 shapeCasts_S1x4x256x256_S4x256x256 (midIdx z)))
        (shapeCast S4x256x256 P3 shapeCasts_S1x4x256x256_S4x256x256 (midIdx z))) half = _
    rw [e0, e1, e2, e3]; rfl
  | ⟨2, _⟩ =>
    refine (addUnit_apply _ z (midIdx z) rfl rfl rfl).trans ?_
    show FloatOps.mulf (FloatOps.subf (FloatOps.addf (FloatOps.subf
        (shapeCast S4x256x256 P0 shapeCasts_S1x4x256x256_S4x256x256 (midIdx z))
        (shapeCast S4x256x256 P1 shapeCasts_S1x4x256x256_S4x256x256 (midIdx z)))
        (shapeCast S4x256x256 P2 shapeCasts_S1x4x256x256_S4x256x256 (midIdx z)))
        (shapeCast S4x256x256 P3 shapeCasts_S1x4x256x256_S4x256x256 (midIdx z))) half = _
    rw [e0, e1, e2, e3]; rfl
  | ⟨3, _⟩ =>
    refine (addUnit_apply _ z (midIdx z) rfl rfl rfl).trans ?_
    show FloatOps.mulf (FloatOps.addf (FloatOps.subf (FloatOps.subf
        (shapeCast S4x256x256 P0 shapeCasts_S1x4x256x256_S4x256x256 (midIdx z))
        (shapeCast S4x256x256 P1 shapeCasts_S1x4x256x256_S4x256x256 (midIdx z)))
        (shapeCast S4x256x256 P2 shapeCasts_S1x4x256x256_S4x256x256 (midIdx z)))
        (shapeCast S4x256x256 P3 shapeCasts_S1x4x256x256_S4x256x256 (midIdx z))) half = _
    rw [e0, e1, e2, e3]; rfl

/-- Where row r of the stored block reads the loaded blocks: (0, r div 4, i, j). -/
abbrev loadIdx (y : S1x16x256x256.Idx) : S1x4x256x256.Idx := fun a => match a with
  | ⟨0, _⟩ => ⟨0, by show 0 < 1; omega⟩
  | ⟨1, _⟩ => ⟨(y 1).val / 4, by have h1 : (y 1).val < 16 := (y 1).isLt; show (y 1).val / 4 < 4; omega⟩
  | ⟨2, _⟩ => ⟨(y 2).val, (y 2).isLt⟩
  | ⟨3, _⟩ => ⟨(y 3).val, (y 3).isLt⟩

/-- THE STORED BLOCK: row r is band (r mod 4) of the four loaded blocks at channel (r div 4). -/
theorem stored_apply (P0 P1 P2 P3 : Vec F S1x4x256x256 .f32) (y : S1x16x256x256.Idx) :
    E4 P0 P1 P2 P3 y = band (csel4_0 y) (P0 (loadIdx y)) (P1 (loadIdx y)) (P2 (loadIdx y)) (P3 (loadIdx y)) :=
  operand_apply P0 P1 P2 P3 (csel4_0 y) (ix4_0 y) (loadIdx y) rfl rfl rfl

end Cert.KernelIdeal.Block

end
-- ==== Proof.KernelArray.lean ====
/-
  From the kernel's blocks to its whole result array.

  The grid is 8 × 8: point (b, g) works on batch entry b and on the four channels 4g … 4g + 3. Every input window's
  block at that point is [b, 4g … 4g + 3, all rows, all columns] of its polyphase part, and the output window's block
  is [b, 16g … 16g + 15, all rows, all columns] of the result. Row r of the stored block is band (r mod 4) of channel
  (r div 4) of the loaded blocks, and since 16g + r has the same remainder mod 4 as r and quotient 4g + (r div 4), the
  stored block is exactly block (b, g) of the transform `bands` of the four whole polyphase parts. The 64 output blocks
  tile the result array (entry (b, ch, i, j) lies in the block of point (b, ch div 16)), so after the run the result
  array is `bands` of the polyphase parts as the region found them.
-/
import proofs.«119243_j36739150250538_2_alg».proof.Proof.KernelBlock

set_option maxRecDepth 16384

noncomputable section

namespace Cert.KernelIdeal.Whole

open Cert.KernelIdeal Cert.KernelIdeal.Gen Cert.KernelIdeal.Block Idealize.ShloMosaic Idealize.ShloMosaic.TcCoe Idealize.SL.Sem Cert.Haar
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- The index maps, decided over the 64 grid points: every input window's block index is the output window's on the
    batch and channel-group axes, and every window's is 0 on the row and column axes. -/
theorem index_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = 0 ∧ win0_3.index t (3 : Fin 4) = 0
    ∧ win0_4.index t (2 : Fin 4) = 0 ∧ win0_4.index t (3 : Fin 4) = 0 :=
  (by decide +kernel : ∀ t : Fin grid0.N, _)

/-- Every pair (batch entry, channel group) is some grid point's output block index. -/
theorem index_onto : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-- WHAT POINT `t` WRITES BACK is block `t` of the transform of the four polyphase parts as the region finds them. -/
theorem flushed_eq (c : Dev nD) (t : Fin cfg0.N) :
    (dats m 0 c).flushed 4 t = ((cfg0.win 4).blk t).view.read (Elt F) (bands (V m c main_v2) (V m c main_v4) (V m c main_v6) (V m c main_v8)) := by
  rw [Cert.KernelIdeal.Value.flushed4]
  unfold out0_4
  simp only [View.ld_unit_zero (S := S1x4x256x256) zero_offsets]
  obtain ⟨a0, b0, c0, d0, a1, b1, c1, d1, a2, b2, c2, d2, a3, b3, c3, d3, c4, d4⟩ := index_facts t
  funext y
  have hy0 : (y 0).val < 1 := (y 0).isLt
  have hy1 : (y 1).val < 16 := (y 1).isLt
  have hy2 : (y 2).val < 256 := (y 2).isLt
  have hy3 : (y 3).val < 256 := (y 3).isLt
  show View.canon ([⟨r0_1, k0_pay1 (k0_pay2 (iblk m c 0 t) (iblk m c 1 t) (iblk m c 2 t) (iblk m c 3 t))⟩] : List (View.Piece (Elt F) S1x16x256x256 .f32)) y
    = (bands (V m c main_v2) (V m c main_v4) (V m c main_v6) (V m c main_v8)) (((cfg0.win 4).blk t).view.emb y)
  refine (Cert.KernelIdeal.Value.canon4_eq (iblk m c 0 t) (iblk m c 1 t) (iblk m c 2 t) (iblk m c 3 t) y).trans ?_
  refine (stored_apply (iblk m c 0 t) (iblk m c 1 t) (iblk m c 2 t) (iblk m c 3 t) y).trans ?_
  have h0 : ((cfg0.win 0).blk t).view.emb (loadIdx y) = partIdx (((cfg0.win 4).blk t).view.emb y) := by
    funext a; apply Fin.ext
    match a with
    | ⟨0, _⟩ => show win0_0.index t (0 : Fin 4) * 1 + 1 * 0 = win0_4.index t (0 : Fin 4) * 1 + 1 * (y 0).val; omega
    | ⟨1, _⟩ => show win0_0.index t (1 : Fin 4) * 4 + 1 * ((y 1).val / 4) = (win0_4.index t (1 : Fin 4) * 16 + 1 * (y 1).val) / 4; omega
    | ⟨2, _⟩ => show win0_0.index t (2 : Fin 4) * 256 + 1 * (y 2).val = win0_4.index t (2 : Fin 4) * 256 + 1 * (y 2).val; omega
    | ⟨3, _⟩ => show win0_0.index t (3 : Fin 4) * 256 + 1 * (y 3).val = win0_4.index t (3 : Fin 4) * 256 + 1 * (y 3).val; omega
  have h1 : ((cfg0.win 1).blk t).view.emb (loadIdx y) = partIdx (((cfg0.win 4).blk t).view.emb y) := by
    funext a; apply Fin.ext
    match a with
    | ⟨0, _⟩ => show win0_1.index t (0 : Fin 4) * 1 + 1 * 0 = win0_4.index t (0 : Fin 4) * 1 + 1 * (y 0).val; omega
    | ⟨1, _⟩ => show win0_1.index t (1 : Fin 4) * 4 + 1 * ((y 1).val / 4) = (win0_4.index t (1 : Fin 4) * 16 + 1 * (y 1).val) / 4; omega
    | ⟨2, _⟩ => show win0_1.index t (2 : Fin 4) * 256 + 1 * (y 2).val = win0_4.index t (2 : Fin 4) * 256 + 1 * (y 2).val; omega
    | ⟨3, _⟩ => show win0_1.index t (3 : Fin 4) * 256 + 1 * (y 3).val = win0_4.index t (3 : Fin 4) * 256 + 1 * (y 3).val; omega
  have h2 : ((cfg0.win 2).blk t).view.emb (loadIdx y) = partIdx (((cfg0.win 4).blk t).view.emb y) := by
    funext a; apply Fin.ext
    match a with
    | ⟨0, _⟩ => show win0_2.index t (0 : Fin 4) * 1 + 1 * 0 = win0_4.index t (0 : Fin 4) * 1 + 1 * (y 0).val; omega
    | ⟨1, _⟩ => show win0_2.index t (1 : Fin 4) * 4 + 1 * ((y 1).val / 4) = (win0_4.index t (1 : Fin 4) * 16 + 1 * (y 1).val) / 4; omega
    | ⟨2, _⟩ => show win0_2.index t (2 : Fin 4) * 256 + 1 * (y 2).val = win0_4.index t (2 : Fin 4) * 256 + 1 * (y 2).val; omega
    | ⟨3, _⟩ => show win0_2.index t (3 : Fin 4) * 256 + 1 * (y 3).val = win0_4.index t (3 : Fin 4) * 256 + 1 * (y 3).val; omega
  have h3 : ((cfg0.win 3).blk t).view.emb (loadIdx y) = partIdx (((cfg0.win 4).blk t).view.emb y) := by
    funext a; apply Fin.ext
    match a with
    | ⟨0, _⟩ => show win0_3.index t (0 : Fin 4) * 1 + 1 * 0 = win0_4.index t (0 : Fin 4) * 1 + 1 * (y 0).val; omega
    | ⟨1, _⟩ => show win0_3.index t (1 : Fin 4) * 4 + 1 * ((y 1).val / 4) = (win0_4.index t (1 : Fin 4) * 16 + 1 * (y 1).val) / 4; omega
    | ⟨2, _⟩ => show win0_3.index t (2 : Fin 4) * 256 + 1 * (y 2).val = win0_4.index t (2 : Fin 4) * 256 + 1 * (y 2).val; omega
    | ⟨3, _⟩ => show win0_3.index t (3 : Fin 4) * 256 + 1 * (y 3).val = win0_4.index t (3 : Fin 4) * 256 + 1 * (y 3).val; omega
  have hb : Cert.KernelIdeal.Value.csel4_0 y = bandIdx (((cfg0.win 4).blk t).view.emb y) := by
    apply Fin.ext
    show (y 1).val % 4 = (win0_4.index t (1 : Fin 4) * 16 + 1 * (y 1).val) % 4
    omega
  show band (Cert.KernelIdeal.Value.csel4_0 y)
      (V m c main_v2 (((cfg0.win 0).blk t).view.emb (loadIdx y))) (V m c main_v4 (((cfg0.win 1).blk t).view.emb (loadIdx y)))
      (V m c main_v6 (((cfg0.win 2).blk t).view.emb (loadIdx y))) (V m c main_v8 (((cfg0.win 3).blk t).view.emb (loadIdx y)))
    = band (bandIdx (((cfg0.win 4).blk t).view.emb y))
      (V m c main_v2 (partIdx (((cfg0.win 4).blk t).view.emb y))) (V m c main_v4 (partIdx (((cfg0.win 4).blk t).view.emb y)))
      (V m c main_v6 (partIdx (((cfg0.win 4).blk t).view.emb y))) (V m c main_v8 (partIdx (((cfg0.win 4).blk t).view.emb y)))
  rw [h0, h1, h2, h3, hb]

/-- An index of the result array is in point `t`'s block iff each coordinate is in the block's range on its axis. -/
theorem mem_blk (t : Fin cfg0.N) (i : S8x128x256x256.Idx) :
    i ∈ ((cfg0.win 4).blk t).view.set ↔ ∀ a : Fin 4, win0_4.index t a * S1x16x256x256.size a ≤ (i a).val ∧ (i a).val < win0_4.index t a * S1x16x256x256.size a + S1x16x256x256.size a := by
  show i ∈ ((View.whole main_v9).slice (win0_4.rect t)).set ↔ _
  rw [View.set_slice_whole, Rect.mem_set_unit]
  exact Iff.rfl

/-- THE BLOCKS TILE THE RESULT: entry (b, ch, i, j) lies in the block of the point whose block index is (b, ch div 16, 0, 0). -/
theorem covered (i : S8x128x256x256.Idx) :
    ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- THE RESULT ARRAY after the run: the transform of the four polyphase parts as the region finds them. -/
theorem final (c : Dev nD) : (dats m 0 c).arrAt 4 cfg0.N = (bands (V m c main_v2) (V m c main_v4) (V m c main_v6) (V m c main_v8)) :=
  (dats m 0 c).arrAt_eq_of_cover 4 (bands (V m c main_v2) (V m c main_v4) (V m c main_v6) (V m c main_v8)) (fun t _ => flushed_eq m c t) covered

/-- The kernel's run re-posted: the result array at the transform of the region-entry polyphase parts, the argument unchanged. -/
theorem run : θ_run defs (onTc (τ := τ) (main (F := F))) ⟨m, fun _ => 0, ρ⟩ fun r => ∀ c : Dev nD,
      r.2.mem ((c : Thread nD τ).loc main_v9) = (bands (V m c main_v2) (V m c main_v4) (V m c main_v6) (V m c main_v8))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.ReferenceBands.lean ====
/-
  The reference's result, read at an index.

  The reference forms the four bands as whole [8, 32, 256, 256] arrays, gives each a unit third axis
  ([8, 32, 1, 256, 256]), joins the four along that axis into [8, 32, 4, 256, 256] and flattens the channel and band
  axes into one axis of 128. Flattening sends (b, c, k, i, j) to (b, 4c + k, i, j), so the result at (b, ch, i, j)
  is piece (ch mod 4) of the join at (b, ch div 4, 0, i, j), which is band (ch mod 4) of the four polyphase parts at
  (b, ch div 4, i, j): the transform `bands` of the specification, of the reference's own polyphase parts.
  The polyphase parts themselves (a reshape to rank 6, a unit slice, a reshape back) are left unopened: the kernel's
  wrapper computes them by the same three operations, so they are compared as whole terms.
-/
import proofs.«119243_j36739150250538_2_alg».proof.Proof.Gen.ReferenceIdeal.Read
import proofs.«119243_j36739150250538_2_alg».proof.Proof.HaarSpec

noncomputable section

namespace Cert.ReferenceIdeal.Bands

open Cert.ReferenceIdeal Cert.ReferenceIdeal.Gen Cert.ReferenceIdeal.Read Idealize.ShloMosaic Cert.Haar

variable {F : FTy → Type} [FloatOps F]

/-- The four pieces the reference joins: band n as a whole array with a unit third axis. -/
abbrev piece (x : (⟨S8x32x512x512, .f32⟩ : BufTy).Contents (Elt F)) : Fin 4 → (S8x32x1x256x256.Idx → Elt F .f32) := fun n => match n with
  | ⟨0, _⟩ => val_main_v29 (F := F) x
  | ⟨1, _⟩ => val_main_v30 (F := F) x
  | ⟨2, _⟩ => val_main_v31 (F := F) x
  | ⟨3, _⟩ => val_main_v32 (F := F) x

/-- PIECE `n` at (b, c, 0, i, j) is band `n` of the four polyphase parts at (b, c, i, j): the unit axis dropped, then
    the signed sum and the halving, one operation at a time. -/
theorem piece_apply (x : (⟨S8x32x512x512, .f32⟩ : BufTy).Contents (Elt F)) (n : Fin 4) (u : S8x32x1x256x256.Idx) (v : S8x32x256x256.Idx)
    (h0 : (u 0).val = (v 0).val) (h1 : (u 1).val = (v 1).val) (h2 : (u 3).val = (v 2).val) (h3 : (u 4).val = (v 3).val) :
    piece x n u = band n (val_main_v2 (F := F) x v) (val_main_v4 (F := F) x v) (val_main_v6 (F := F) x v) (val_main_v8 (F := F) x v) := by
  have hidx : ∀ (w : S8x32x256x256.Idx), (∀ a : Fin 4, (w a).val = (![(u 0).val, (u 1).val, (u 3).val, (u 4).val] : Fin 4 → Nat) a) → w = v := by
    intro w hw; funext a; apply Fin.ext
    match a with
    | ⟨0, _⟩ => exact (hw 0).trans h0
    | ⟨1, _⟩ => exact (hw 1).trans h1
    | ⟨2, _⟩ => exact (hw 2).trans h2
    | ⟨3, _⟩ => exact (hw 3).trans h3
  have e29 : idx_main_v29 u = v := hidx _ (fun a => by match a with | ⟨0, _⟩ => rfl | ⟨1, _⟩ => rfl | ⟨2, _⟩ => rfl | ⟨3, _⟩ => rfl)
  have e30 : idx_main_v30 u = v := hidx _ (fun a => by match a with | ⟨0, _⟩ => rfl | ⟨1, _⟩ => rfl | ⟨2, _⟩ => rfl | ⟨3, _⟩ => rfl)
  have e31 : idx_main_v31 u = v := hidx _ (fun a => by match a with | ⟨0, _⟩ => rfl | ⟨1, _⟩ => rfl | ⟨2, _⟩ => rfl | ⟨3, _⟩ => rfl)
  have e32 : idx_main_v32 u = v := hidx _ (fun a => by match a with | ⟨0, _⟩ => rfl | ⟨1, _⟩ => rfl | ⟨2, _⟩ => rfl | ⟨3, _⟩ => rfl)
  match n with
  | ⟨0, _⟩ =>
    show val_main_v29 (F := F) x u = _
    rw [val_main_v29_apply, e29, val_main_v13_apply, val_main_v11_apply, val_main_v10_apply, val_main_v9_apply,
      val_main_v12_apply, val_main_cst_apply]
    rfl
  | ⟨1, _⟩ =>
    show val_main_v30 (F := F) x u = _
    rw [val_main_v30_apply, e30, val_main_v18_apply, val_main_v16_apply, val_main_v15_apply, val_main_v14_apply,
      val_main_v17_apply, val_main_cst_0_apply]
    rfl
  | ⟨2, _⟩ =>
    show val_main_v31 (F := F) x u = _
    rw [val_main_v31_apply, e31, val_main_v23_apply, val_main_v21_apply, val_main_v20_apply, val_main_v19_apply,
      val_main_v22_apply, val_main_cst_1_apply]
    rfl
  | ⟨3, _⟩ =>
    show val_main_v32 (F := F) x u = _
    rw [val_main_v32_apply, e32, val_main_v28_apply, val_main_v26_apply, val_main_v25_apply, val_main_v24_apply,
      val_main_v27_apply, val_main_cst_2_apply]
    rfl

/-- Where result index (b, ch, i, j) reads its piece of the join: (b, ch div 4, 0, i, j). -/
abbrev pieceIdx (i : S8x128x256x256.Idx) : S8x32x1x256x256.Idx := fun a => match a with
  | ⟨0, _⟩ => ⟨(i 0).val, (i 0).isLt⟩
  | ⟨1, _⟩ => ⟨(i 1).val / 4, by have h1 : (i 1).val < 128 := (i 1).isLt; show (i 1).val / 4 < 32; omega⟩
  | ⟨2, _⟩ => ⟨0, by show 0 < 1; omega⟩
  | ⟨3, _⟩ => ⟨(i 2).val, (i 2).isLt⟩
  | ⟨4, _⟩ => ⟨(i 3).val, (i 3).isLt⟩

/-- THE REFERENCE'S RESULT is the transform of its polyphase parts. -/
theorem result_apply (x : (⟨S8x32x512x512, .f32⟩ : BufTy).Contents (Elt F)) (i : S8x128x256x256.Idx) :
    val_main_v34 (F := F) x i
      = bands (val_main_v2 (F := F) x) (val_main_v4 (F := F) x) (val_main_v6 (F := F) x) (val_main_v8 (F := F) x) i := by
  have h0 : (i 0).val < 8 := (i 0).isLt
  have h1 : (i 1).val < 128 := (i 1).isLt
  have h2 : (i 2).val < 256 := (i 2).isLt
  have h3 : (i 3).val < 256 := (i 3).isLt
  rw [val_main_v34_apply]
  unfold val_main_v33
  show concatenate S8x32x4x256x256 2 (List.ofFn fun n : Fin 4 => (⟨S8x32x1x256x256, piece x n⟩ : (s : Shape) × (s.Idx → _))) _ (idx_main_v34 i) = _
  refine (concatenate_ofFn_apply (t := S8x32x4x256x256) (s₁ := S8x32x1x256x256) (2 : Fin 5) (piece x) _ rfl 1 rfl (idx_main_v34 i)
    (bandIdx i) ?_ (pieceIdx i) ?_ ?_).trans ?_
  · show ((((i 0).val * 128 + (i 1).val) * 256 + (i 2).val) * 256 + (i 3).val) / 65536 % 4 / 1 = (i 1).val % 4
    omega
  · show 0 = ((((i 0).val * 128 + (i 1).val) * 256 + (i 2).val) * 256 + (i 3).val) / 65536 % 4 % 1
    omega
  · intro b hb
    match b with
    | ⟨0, _⟩ => show (i 0).val = ((((i 0).val * 128 + (i 1).val) * 256 + (i 2).val) * 256 + (i 3).val) / 8388608; omega
    | ⟨1, _⟩ => show (i 1).val / 4 = ((((i 0).val * 128 + (i 1).val) * 256 + (i 2).val) * 256 + (i 3).val) / 262144 % 32; omega
    | ⟨2, _⟩ => exact absurd rfl hb
    | ⟨3, _⟩ => show (i 2).val = ((((i 0).val * 128 + (i 1).val) * 256 + (i 2).val) * 256 + (i 3).val) / 256 % 256; omega
    | ⟨4, _⟩ => show (i 3).val = ((((i 0).val * 128 + (i 1).val) * 256 + (i 2).val) * 256 + (i 3).val) % 256; omega
  · exact piece_apply x (bandIdx i) (pieceIdx i) (partIdx i) rfl rfl rfl rfl

/-- The same as an equation of whole arrays. -/
theorem result_eq (x : (⟨S8x32x512x512, .f32⟩ : BufTy).Contents (Elt F)) :
    val_main_v34 (F := F) x
      = bands (val_main_v2 (F := F) x) (val_main_v4 (F := F) x) (val_main_v6 (F := F) x) (val_main_v8 (F := F) x) :=
  funext fun i => result_apply x i

end Cert.ReferenceIdeal.Bands

end
-- ==== Proof.HostParts.lean ====
/-
  The polyphase parts the kernel's region finds.

  Before the region the kernel's wrapper splits the image into its four polyphase parts by plain host operations:
  x[b, c, 2i + r, 2j + s] viewed as [8, 32, 256, 2, 256, 2], the unit slice at (r, s) on the two parity axes, and the
  result viewed as [8, 32, 256, 256]. The reference begins with the very same three operations per part. So the four
  arrays the region's input windows read are, as whole terms of the argument, the reference's four stages: nothing
  about the reshapes or the slices has to be read at an index.
-/
import proofs.«119243_j36739150250538_2_alg».proof.Proof.Gen.KernelIdeal.Frame
import proofs.«119243_j36739150250538_2_alg».proof.Proof.Gen.ReferenceIdeal.Read

noncomputable section

namespace Cert.KernelIdeal.Parts

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The part of even rows and even columns, as the region finds it, is the reference's. -/
theorem part00 (c : Dev nD) :
    (V m c main_v2 : S8x32x256x256.Idx → Elt F .f32)
      = Cert.ReferenceIdeal.Read.val_main_v2 (F := F) (m ((c : Thread nD τ).loc main_arg0)) := by
  dsimp only [Gen.V, Gen.hostOps0]
  after_results
  rfl

/-- The part of even rows and odd columns. -/
theorem part01 (c : Dev nD) :
    (V m c main_v4 : S8x32x256x256.Idx → Elt F .f32)
      = Cert.ReferenceIdeal.Read.val_main_v4 (F := F) (m ((c : Thread nD τ).loc main_arg0)) := by
  dsimp only [Gen.V, Gen.hostOps0]
  after_results
  rfl

/-- The part of odd rows and even columns. -/
theorem part10 (c : Dev nD) :
    (V m c main_v6 : S8x32x256x256.Idx → Elt F .f32)
      = Cert.ReferenceIdeal.Read.val_main_v6 (F := F) (m ((c : Thread nD τ).loc main_arg0)) := by
  dsimp only [Gen.V, Gen.hostOps0]
  after_results
  rfl

/-- The part of odd rows and odd columns. -/
theorem part11 (c : Dev nD) :
    (V m c main_v8 : S8x32x256x256.Idx → Elt F .f32)
      = Cert.ReferenceIdeal.Read.val_main_v8 (F := F) (m ((c : Thread nD τ).loc main_arg0)) := by
  dsimp only [Gen.V, Gen.hostOps0]
  after_results
  rfl

end Cert.KernelIdeal.Parts

end
-- ==== Proof.lean ====
/-
  One level of the two-dimensional Haar wavelet transform: a tiled kernel against a whole-array reference.

  Both programs split the image x[b, c, 2i + r, 2j + s] into its four polyphase parts p_rs[b, c, i, j] by the same
  three host operations per part, and both form, at every position, the four bands
      ((p00 ± p01) ± p10) ± p11) · ½        with signs (+,+,+), (+,−,−), (−,+,−), (−,−,+),
  the operations in the same order and the same constant ½, and lay the four bands of channel c out as channels
  4c … 4c + 3 of the result. They differ only in how that layout is reached:
    · the reference gives each whole band array a unit third axis, joins the four along it and flattens
      (channel, band) into one axis (Proof/ReferenceBands.lean);
    · the kernel works on an 8 × 8 grid, four channels of one batch entry at a time: it stacks the four bands of its
      four channels along a new second axis, flattens (channel, band) inside the block, and the 64 blocks of 16
      channels tile the result (Proof/KernelBlock.lean, Proof/KernelArray.lean).
  Both layouts put band (ch mod 4) of channel (ch div 4) at channel ch: the one function `Cert.Haar.bands` of the four
  polyphase parts (Proof/HaarSpec.lean). The parts the kernel's region finds are the reference's stages as whole terms
  (Proof/HostParts.lean). No law of the arithmetic is used — the two sides apply the same operations to the same
  operands — so the equality holds for every input over the extended reals and the precondition is never opened.

  The frames of the two kernel programs are the generated frame runs; the reference's frame is its generated run with
  the result dropped; the idealization rewrote no operation, so `preserves` has nothing to state.
-/
import proofs.«119243_j36739150250538_2_alg».proof.Defs
import proofs.«119243_j36739150250538_2_alg».proof.Proof.Gen.Kernel
import proofs.«119243_j36739150250538_2_alg».proof.Proof.Gen.Kernel.Skeleton
import proofs.«119243_j36739150250538_2_alg».proof.Proof.Gen.Kernel.Launch
import proofs.«119243_j36739150250538_2_alg».proof.Proof.Gen.Kernel.Points
import proofs.«119243_j36739150250538_2_alg».proof.Proof.Gen.Kernel.Frame
import proofs.«119243_j36739150250538_2_alg».proof.Proof.Gen.KernelIdeal
import proofs.«119243_j36739150250538_2_alg».proof.Proof.Gen.KernelIdeal.Skeleton
import proofs.«119243_j36739150250538_2_alg».proof.Proof.Gen.KernelIdeal.Launch
import proofs.«119243_j36739150250538_2_alg».proof.Proof.Gen.KernelIdeal.Points
import proofs.«119243_j36739150250538_2_alg».proof.Proof.Gen.KernelIdeal.Frame
import proofs.«119243_j36739150250538_2_alg».proof.Proof.Gen.ReferenceIdeal
import proofs.«119243_j36739150250538_2_alg».proof.Proof.Gen.Pre_finite_inputs
import proofs.«119243_j36739150250538_2_alg».proof.Proof.Gen.KernelIdeal.Value
import proofs.«119243_j36739150250538_2_alg».proof.Proof.Gen.ReferenceIdeal.Run
import proofs.«119243_j36739150250538_2_alg».proof.Proof.Gen.ReferenceIdeal.Read
import proofs.«119243_j36739150250538_2_alg».proof.Proof.HaarSpec
import proofs.«119243_j36739150250538_2_alg».proof.Proof.KernelBlock
import proofs.«119243_j36739150250538_2_alg».proof.Proof.KernelArray
import proofs.«119243_j36739150250538_2_alg».proof.Proof.ReferenceBands
import proofs.«119243_j36739150250538_2_alg».proof.Proof.HostParts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The transform of the reference's four polyphase stages of an image `x`: the common value of the two results. -/
abbrev transform (x : (⟨Cert.ReferenceIdeal.S8x32x512x512, .f32⟩ : BufTy).Contents (Elt Ideal)) :
    Cert.Haar.SBands.Idx → Ideal .f32 :=
  Cert.Haar.bands (Cert.ReferenceIdeal.Read.val_main_v2 (F := Ideal) x) (Cert.ReferenceIdeal.Read.val_main_v4 (F := Ideal) x)
    (Cert.ReferenceIdeal.Read.val_main_v6 (F := Ideal) x) (Cert.ReferenceIdeal.Read.val_main_v8 (F := Ideal) x)

/-- Both results are the transform of the polyphase parts of the one image: the kernel's result array by its blocks
    and the parts its region finds, the reference's by its last stage read at an index. -/
theorem algebraic : Cert.algebraic_KernelIdeal_ReferenceIdeal := by
  intro m ρ m' ρ' _ hagree
  refine ⟨fun c => transform (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Whole.run (F := Ideal) m ρ)
    rw [Cert.KernelIdeal.Parts.part00 m c, Cert.KernelIdeal.Parts.part01 m c, Cert.KernelIdeal.Parts.part10 m c,
      Cert.KernelIdeal.Parts.part11 m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.Bands.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
